-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .i32⟩
  | .hbm, ⟨5, _⟩ => ⟨S16x2048x64, .f32⟩
  | .hbm, ⟨6, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg2) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.SoftmaxRow.lean ====
/-
  One row of masked, scaled dot-product attention over the extended reals, as functions of ROWS: a query row
  `q : Fin 64 → EReal`, the key rows `k : Fin 2048 → Fin 64 → EReal`, the row's mask bits `mk : Fin 2048 → BitVec 1`
  and one column of the values `v : Fin 2048 → EReal`.

    score q k mk s   = -∞ where the mask bit is set, else (Σ_d q d · k s d) · 1/8
    softmax x s      = exp (x s − max_s' x s') / Σ_s' exp (x s' − max_s' x s')     (the maximum folded from -∞)
    weight q k mk    = softmax (score q k mk)
    mix w v          = Σ_s w s · v s

  The two float literals (the scale 1/8 and -∞) are kept as the words the programs print: both programs print the same
  words, so neither is ever evaluated. A block of the kernel and a row of the whole arrays are these functions at equal
  rows, which is all the comparison of the two programs comes to.
-/
import Idealize.ShloMosaic.PureOps.Ideal
import Idealize.ShloMosaic.PureOps.Ideal.Laws
import Idealize.ShloMosaic.Lib.ValueIdx

noncomputable section

namespace Cert.Attn

open Idealize.ShloMosaic

/-- The fill of a masked score and the value every row maximum is folded from: the f32 word of -∞. -/
abbrev fill : EReal := Ideal.ofBits .f32 0xFF800000#32

/-- The scale of the scores: the f32 word of 1/8 (64 to the power -1/2, exactly). -/
abbrev scale : EReal := Ideal.ofBits .f32 0x3E000000#32

/-- The masked, scaled score of a query row against key row `s`. -/
def score (q : Fin 64 → EReal) (k : Fin 2048 → Fin 64 → EReal) (mk : Fin 2048 → BitVec 1) (s : Fin 2048) : EReal :=
  Scalar.select (mk s) fill ((∑ d : Fin 64, q d * k s d) * scale)

/-- A row's maximum, folded from the fill. -/
def rowMax (x : Fin 2048 → EReal) : EReal := (Finset.univ : Finset (Fin 2048)).fold max fill x

/-- The shifted exponential of entry `s` of a row. -/
def expo (x : Fin 2048 → EReal) (s : Fin 2048) : EReal := Ideal.exp (x s - rowMax x)

/-- The softmax of a row: each shifted exponential over their sum. -/
def softmax (x : Fin 2048 → EReal) (s : Fin 2048) : EReal := Ideal.div (expo x s) (∑ s' : Fin 2048, expo x s')

/-- The attention weights of a query row. -/
def weight (q : Fin 64 → EReal) (k : Fin 2048 → Fin 64 → EReal) (mk : Fin 2048 → BitVec 1) : Fin 2048 → EReal :=
  softmax (score q k mk)

/-- A row of weights applied to one column of the values. -/
def mix (w : Fin 2048 → EReal) (v : Fin 2048 → EReal) : EReal := ∑ s : Fin 2048, w s * v s

/-- A maximum folded from `a` is at least `a`, so taking the maximum with `a` once more changes nothing: whatever `a`
    is, and with no appeal to what the fill word denotes. -/
theorem max_fold_max_self {n : ℕ} (a : EReal) (x : Fin n → EReal) :
    max a ((Finset.univ : Finset (Fin n)).fold max a x) = (Finset.univ : Finset (Fin n)).fold max a x :=
  max_eq_right ((Finset.le_fold_max a).mpr (Or.inl le_rfl))

/-- A sum started from the f32 zero word is the sum. -/
theorem zero_word_add (y : EReal) : Ideal.ofBits .f32 0x00000000#32 + y = y := by
  rw [Ideal.ofBits_zero_f32, zero_add]

/-- A mask bit widened to a 32-bit word and tested against zero is the bit. -/
theorem widened_ne_zero (b : BitVec 1) : IntOp.cmpi .ne (b.setWidth 32) 0#32 = b := by
  rcases BitVec.eq_zero_or_eq_one b with h | h <;> subst h <;> decide

end Cert.Attn

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelBlock.lean ====
/-
  What the kernel's body computes on one grid point's blocks, read index by index at the extended reals.

  The body loads a [1, 512, 64] block of queries, the [1, 2048, 64] keys and values of the batch entry, and a
  [1, 512, 2048] block of mask words; it stores the [512, 2048] attention weights and their product with the values.
  Row `r` of the stored weights is the softmax of row `r` of the masked, scaled scores, and entry `(r, d)` of the
  product is that row of weights applied to column `d` of the values: the functions of Proof/SoftmaxRow.lean at the
  rows of the blocks. A change of float format is the identity here, a product into the zero accumulator is the plain
  sum of products, a lane reduction is the fold or the sum over the lane axis, and the keepdims column
  [512] → [512, 1] → [512, 2048] hands every entry of a row that row's reduced value.
-/
import proofs.«144351_j61873298866888_2_alg».proof.Proof.Gen.KernelIdeal.Skeleton
import proofs.«144351_j61873298866888_2_alg».proof.Proof.SoftmaxRow
import proofs.«144351_j61873298866888_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Attn

/-! ## A row reduction handed back to every entry of its row -/

/-- The row maxima of a block, each spread over its row. -/
def rowMaxima (X : FVec Ideal S512x2048 .f32) : FVec Ideal S512x2048 .f32 :=
  broadcastTo S512x2048 (shapeCast S512x1 (multiReduction .maximumf [1] S512 X 0xFF800000#32 reduces_S512x2048_S512 (.inl rfl) rfl) shapeCasts_S512_S512x1) broadcasts_S512x1_S512x2048

/-- The row sums of a block, each spread over its row. -/
def rowSums (E : FVec Ideal S512x2048 .f32) : FVec Ideal S512x2048 .f32 :=
  broadcastTo S512x2048 (shapeCast S512x1 (multiReduction .add [1] S512 E 0x00000000#32 reduces_S512x2048_S512 (.inl rfl) rfl) shapeCasts_S512_S512x1) broadcasts_S512x1_S512x2048

/-- Every entry of row `r` holds the maximum of row `r`, folded from the fill. -/
theorem rowMaxima_apply (X : FVec Ideal S512x2048 .f32) (r : Fin 512) (s : Fin 2048) :
    rowMaxima X (ix2 r s) = rowMax (fun s' => X (ix2 r s')) := by
  unfold rowMaxima
  refine (Cert.ColumnLayout.broadcastTo_a1_ab_apply _ broadcasts_S512x1_S512x2048 r s).trans ?_
  refine (Cert.ColumnLayout.shapeCast_a_a1_apply _ shapeCasts_S512_S512x1 r (0 : Fin 1)).trans ?_
  refine (Ideal.multiReduction_maximumf_single X 0xFF800000#32 reduces_S512x2048_S512 _ _ (ix1 r)).trans ?_
  unfold rowMax
  exact congrArg (fun f => Finset.fold max fill f (Finset.univ : Finset (Fin 2048)))
    (funext fun k => congrArg X (funext fun a => Fin.ext (by match a with | ⟨0, _⟩ => rfl | ⟨1, _⟩ => rfl)))

/-- Every entry of row `r` holds the sum of row `r`. -/
theorem rowSums_apply (E : FVec Ideal S512x2048 .f32) (r : Fin 512) (s : Fin 2048) :
    rowSums E (ix2 r s) = ∑ s' : Fin 2048, E (ix2 r s') := by
  unfold rowSums
  refine (Cert.ColumnLayout.broadcastTo_a1_ab_apply _ broadcasts_S512x1_S512x2048 r s).trans ?_
  refine (Cert.ColumnLayout.shapeCast_a_a1_apply _ shapeCasts_S512_S512x1 r (0 : Fin 1)).trans ?_
  refine (Ideal.multiReduction_add_single E 0x00000000#32 reduces_S512x2048_S512 _ _ (ix1 r)).trans ?_
  exact Finset.sum_congr rfl fun k _ =>
    congrArg E (funext fun a => Fin.ext (by match a with | ⟨0, _⟩ => rfl | ⟨1, _⟩ => rfl))

/-! ## The softmax of a block, row by row -/

/-- The body's softmax of a block of scores: shift each row by its maximum, exponentiate, divide by the row's sum. -/
def softmaxBlk (X : FVec Ideal S512x2048 .f32) : FVec Ideal S512x2048 .f32 :=
  divf (exp (subf X (rowMaxima X))) (rowSums (exp (subf X (rowMaxima X))))

/-- Entry `(r, s)` of it is entry `s` of the softmax of row `r`. -/
theorem softmaxBlk_apply (X : FVec Ideal S512x2048 .f32) (r : Fin 512) (s : Fin 2048) :
    softmaxBlk X (ix2 r s) = softmax (fun s' => X (ix2 r s')) s := by
  show Ideal.div (Ideal.exp (X (ix2 r s) - rowMaxima X (ix2 r s))) (rowSums (exp (subf X (rowMaxima X))) (ix2 r s)) = _
  rw [rowSums_apply, rowMaxima_apply]
  unfold softmax expo
  refine congrArg (Ideal.div _) (Finset.sum_congr rfl fun s' _ => ?_)
  show Ideal.exp (X (ix2 r s') - rowMaxima X (ix2 r s')) = _
  rw [rowMaxima_apply]

/-! ## The two products -/

theorem lhs_scores_0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_scores_1 (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q
theorem rhs_scores_0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_scores_1 (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

/-- Queries times keys, contracted over the 64 features: entry `(r, s)` is the dot product of query row `r` and key row `s`. -/
theorem scores_apply (A : FVec Ideal S512x64 .bf16) (B : FVec Ideal S2048x64 .bf16) (r : Fin 512) (s : Fin 2048) :
    matmul dot_S512x64_S2048x64_S512x2048_1_1_0_0_n_n none A B (constant S512x2048 .f32 0x00000000#32) (ix2 r s) = ∑ d : Fin 64, A (ix2 r d) * B (ix2 s d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r s) ((contrEquiv1 dot_S512x64_S2048x64_S512x2048_1_1_0_0_n_n 64 rfl rfl).symm k) = ix2 r k := funext fun a => Fin.ext (by
    match a with
    | ⟨0, _⟩ => exact lhs_scores_0 _ _
    | ⟨1, _⟩ => exact (lhs_scores_1 _ _).trans hk)
  have er : dot_S512x64_S2048x64_S512x2048_1_1_0_0_n_n.rhsIdx (ix2 r s) ((contrEquiv1 dot_S512x64_S2048x64_S512x2048_1_1_0_0_n_n 64 rfl rfl).symm k) = ix2 s k := funext fun a => Fin.ext (by
    match a with
    | ⟨0, _⟩ => exact rhs_scores_0 _ _
    | ⟨1, _⟩ => exact (rhs_scores_1 _ _).trans hk)
  rw [el, er]

theorem lhs_mix_0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_mix_1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem rhs_mix_0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q
theorem rhs_mix_1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times values, contracted over the 2048 keys: entry `(r, d)` is row `r` of the weights applied to column `d`. -/
theorem mixed_apply (W : FVec Ideal S512x2048 .bf16) (B : FVec Ideal S2048x64 .bf16) (r : Fin 512) (d : Fin 64) :
    matmul dot_S512x2048_S2048x64_S512x64_1_0_0_1_n_n none W B (constant S512x64 .f32 0x00000000#32) (ix2 r d) = ∑ s : Fin 2048, W (ix2 r s) * B (ix2 s d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact lhs_mix_0 _ _
    | ⟨1, _⟩ => exact (lhs_mix_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (rhs_mix_0 _ _).trans hk
    | ⟨1, _⟩ => exact rhs_mix_1 _ _)
  rw [el, er]

/-! ## The masked, scaled scores of a grid point's blocks -/

/-- The body's block of scores: queries times keys, times the scale, the fill where the mask word is not zero. -/
def scoreBlk (P0 : Vec Ideal S1x512x64 .f32) (P1 : Vec Ideal S1x2048x64 .f32) (P3 : Vec Ideal S1x512x2048 .i32) : FVec Ideal S512x2048 .f32 :=
  select (cmpi .ne (shapeCast S512x2048 P3 shapeCasts_S1x512x2048_S512x2048) (constantI S512x2048 32 0#32))
    (broadcast S512x2048 (Scalar.ofBits .f32 0xFF800000#32))
    (mulf (matmul dot_S512x64_S2048x64_S512x2048_1_1_0_0_n_n none
        (truncf .bf16 (shapeCast S512x64 P0 shapeCasts_S1x512x64_S512x64) bitsLt_bf16_f32)
        (truncf .bf16 (shapeCast S2048x64 P1 shapeCasts_S1x2048x64_S2048x64) bitsLt_bf16_f32)
        (constant S512x2048 .f32 0x00000000#32))
      (broadcast S512x2048 (Scalar.ofBits .f32 0x3E000000#32)))

/-- Entry `(r, s)` of it is the score of query row `r` of the block against key row `s`, under the bit that says
    whether the block's mask word at `(r, s)` is not zero. -/
theorem scoreBlk_apply (P0 : Vec Ideal S1x512x64 .f32) (P1 : Vec Ideal S1x2048x64 .f32) (P3 : Vec Ideal S1x512x2048 .i32)
    (r : Fin 512) (s : Fin 2048) :
    scoreBlk P0 P1 P3 (ix2 r s)
      = score (fun d => P0 (ix3 (0 : Fin 1) r d)) (fun s' d => P1 (ix3 (0 : Fin 1) s' d))
          (fun s' => IntOp.cmpi .ne (P3 (ix3 (0 : Fin 1) r s')) 0#32) s := by
  unfold scoreBlk score
  show Scalar.select (IntOp.cmpi .ne (shapeCast S512x2048 P3 shapeCasts_S1x512x2048_S512x2048 (ix2 r s)) 0#32) fill
      (matmul (F := Ideal) dot_S512x64_S2048x64_S512x2048_1_1_0_0_n_n none
        (truncf .bf16 (shapeCast S512x64 P0 shapeCasts_S1x512x64_S512x64) bitsLt_bf16_f32)
        (truncf .bf16 (shapeCast S2048x64 P1 shapeCasts_S1x2048x64_S2048x64) bitsLt_bf16_f32)
        (constant S512x2048 .f32 0x00000000#32) (ix2 r s) * scale) = _
  rw [shapeCast_1ab_ab_apply P3 shapeCasts_S1x512x2048_S512x2048 r s, scores_apply]
  refine congrArg (fun z => Scalar.select _ fill (z * scale)) (Finset.sum_congr rfl fun d _ => ?_)
  show shapeCast S512x64 P0 shapeCasts_S1x512x64_S512x64 (ix2 r d) * shapeCast S2048x64 P1 shapeCasts_S1x2048x64_S2048x64 (ix2 s d) = _
  rw [shapeCast_1ab_ab_apply P0 shapeCasts_S1x512x64_S512x64 r d, shapeCast_1ab_ab_apply P1 shapeCasts_S1x2048x64_S2048x64 s d]

/-! ## The two stored values -/

/-- The stored weights are the softmax of the score block. -/
theorem weights_eq (P0 : Vec Ideal S1x512x64 .f32) (P1 : Vec Ideal S1x2048x64 .f32) (P3 : Vec Ideal S1x512x2048 .i32) :
    k0_pay2 P0 P1 P3 = softmaxBlk (scoreBlk P0 P1 P3) := rfl

/-- THE WEIGHTS AT AN INDEX: entry `(r, s)` is the attention weight of query row `r` of the block on key `s`. -/
theorem weights_apply (P0 : Vec Ideal S1x512x64 .f32) (P1 : Vec Ideal S1x2048x64 .f32) (P3 : Vec Ideal S1x512x2048 .i32)
    (r : Fin 512) (s : Fin 2048) :
    k0_pay2 P0 P1 P3 (ix2 r s)
      = weight (fun d => P0 (ix3 (0 : Fin 1) r d)) (fun s' d => P1 (ix3 (0 : Fin 1) s' d))
          (fun s' => IntOp.cmpi .ne (P3 (ix3 (0 : Fin 1) r s')) 0#32) s := by
  rw [weights_eq, softmaxBlk_apply]
  unfold weight
  exact congrArg (fun x => softmax x s) (funext fun s' => scoreBlk_apply P0 P1 P3 r s')

/-- THE OUTPUT AT AN INDEX: entry `(r, d)` is the weights of query row `r` applied to column `d` of the values. -/
theorem output_apply (P0 : Vec Ideal S1x512x64 .f32) (P1 : Vec Ideal S1x2048x64 .f32) (P2 : Vec Ideal S1x2048x64 .f32)
    (P3 : Vec Ideal S1x512x2048 .i32) (r : Fin 512) (d : Fin 64) :
    k0_pay4 P0 P1 P2 P3 (ix2 r d)
      = mix (weight (fun d' => P0 (ix3 (0 : Fin 1) r d')) (fun s' d' => P1 (ix3 (0 : Fin 1) s' d'))
              (fun s' => IntOp.cmpi .ne (P3 (ix3 (0 : Fin 1) r s')) 0#32))
          (fun s => P2 (ix3 (0 : Fin 1) s d)) := by
  unfold k0_pay4 mix
  refine (mixed_apply _ _ r d).trans (Finset.sum_congr rfl fun s _ => ?_)
  show k0_pay2 P0 P1 P3 (ix2 r s) * shapeCast S2048x64 P2 shapeCasts_S1x2048x64_S2048x64 (ix2 s d) = _
  rw [weights_apply, shapeCast_1ab_ab_apply P2 shapeCasts_S1x2048x64_S2048x64 s d]

end Cert.KernelIdeal.Block

end
-- ==== Proof.AttentionArrays.lean ====
/-
  The two results as functions of the whole argument arrays: the attention weights `[16, 2048, 2048]` and the output
  `[16, 2048, 64]`. Entry `(b, r, s)` of the weights is the attention weight (Proof/SoftmaxRow.lean) of query row
  `(b, r)` on key `s` of batch entry `b` under mask row `(b, r)`; entry `(b, r, d)` of the output is that row of
  weights applied to column `d` of the values of batch entry `b`.
-/
import proofs.«144351_j61873298866888_2_alg».proof.Proof.SoftmaxRow

noncomputable section

namespace Cert.Attn

open Idealize.ShloMosaic Idealize.ShloMosaic.ValueIdx

/-- The attention weights of queries `Q` on keys `K` under the mask `M`. -/
def attention (Q K : (⟨3, ![16, 2048, 64]⟩ : Shape).Idx → EReal) (M : (⟨3, ![16, 2048, 2048]⟩ : Shape).Idx → BitVec 1) :
    (⟨3, ![16, 2048, 2048]⟩ : Shape).Idx → EReal :=
  fun i => weight (fun d => Q (ix3 (i 0) (i 1) d)) (fun s' d => K (ix3 (i 0) s' d)) (fun s' => M (ix3 (i 0) (i 1) s')) (i 2)

/-- The weights applied to the values `W`. -/
def output (W Q K : (⟨3, ![16, 2048, 64]⟩ : Shape).Idx → EReal) (M : (⟨3, ![16, 2048, 2048]⟩ : Shape).Idx → BitVec 1) :
    (⟨3, ![16, 2048, 64]⟩ : Shape).Idx → EReal :=
  fun i => mix (weight (fun d => Q (ix3 (i 0) (i 1) d)) (fun s' d => K (ix3 (i 0) s' d)) (fun s' => M (ix3 (i 0) (i 1) s')))
    (fun s => W (ix3 (i 0) s (i 2)))

theorem attention_ix3 (Q K : (⟨3, ![16, 2048, 64]⟩ : Shape).Idx → EReal) (M : (⟨3, ![16, 2048, 2048]⟩ : Shape).Idx → BitVec 1)
    (b : Fin 16) (r s : Fin 2048) :
    attention Q K M (ix3 b r s)
      = weight (fun d => Q (ix3 b r d)) (fun s' d => K (ix3 b s' d)) (fun s' => M (ix3 b r s')) s := rfl

theorem output_ix3 (W Q K : (⟨3, ![16, 2048, 64]⟩ : Shape).Idx → EReal) (M : (⟨3, ![16, 2048, 2048]⟩ : Shape).Idx → BitVec 1)
    (b : Fin 16) (r : Fin 2048) (d : Fin 64) :
    output W Q K M (ix3 b r d)
      = mix (weight (fun d' => Q (ix3 b r d')) (fun s' d' => K (ix3 b s' d')) (fun s' => M (ix3 b r s')))
          (fun s => W (ix3 b s d)) := rfl

/-- The weights depend on the rows only through their entries. -/
theorem weight_congr {q q' : Fin 64 → EReal} {k k' : Fin 2048 → Fin 64 → EReal} {mk mk' : Fin 2048 → BitVec 1}
    (hq : ∀ d, q d = q' d) (hk : ∀ s d, k s d = k' s d) (hm : ∀ s, mk s = mk' s) : weight q k mk = weight q' k' mk' := by
  rw [show q = q' from funext hq, show k = k' from funext fun s => funext (hk s), show mk = mk' from funext hm]

end Cert.Attn

end
-- ==== Proof.KernelArray.lean ====
/-
  From one grid point's blocks to the whole result arrays.

  Grid point `t = (b, j)` of the 16 × 4 grid reads query rows `512·j … 512·j + 511` of batch entry `b`, all the keys
  and values of batch entry `b`, and the same rows of the mask — which the program has widened, bit by bit, to 32-bit
  words before the call —, and writes back rows `512·j … 512·j + 511` of batch entry `b` of both results. So the
  block read at `(0, r, ·)` is the array row `(b, 512·j + r, ·)`, the widened mask word tested against zero is the mask
  bit again, and what the point writes back is the block of the whole-array functions of Proof/AttentionArrays.lean.
  The 64 blocks tile each result array: row `R` of batch entry `b` is covered by the point `(b, R / 512)`.
-/
import proofs.«144351_j61873298866888_2_alg».proof.Proof.Gen.KernelIdeal.Value
import proofs.«144351_j61873298866888_2_alg».proof.Proof.KernelBlock
import proofs.«144351_j61873298866888_2_alg».proof.Proof.AttentionArrays
import Idealize.ShloMosaic.Lib.StableHlo.Run
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-! ## One point's blocks, over variables -/

/-- What a point leaves in the weights' buffer, at block index `(u, r, s)`, when its query block's row `r` is query row
    `(b, R)`, its key block is the keys of batch entry `b`, and its mask words' row `r` is mask row `(b, R)` widened:
    entry `(b, R, s)` of the attention weights. -/
theorem weightsBlock_apply (P0 : Vec Ideal S1x512x64 .f32) (P1 P2 : Vec Ideal S1x2048x64 .f32) (P3 : Vec Ideal S1x512x2048 .i32)
    (Q K : S16x2048x64.Idx → EReal) (M : S16x2048x2048.Idx → BitVec 1)
    (u : Fin 1) (r : Fin 512) (s : Fin 2048) (b : Fin 16) (R : Fin 2048)
    (hq : ∀ d : Fin 64, P0 (ix3 (0 : Fin 1) r d) = Q (ix3 b R d))
    (hk : ∀ (s' : Fin 2048) (d : Fin 64), P1 (ix3 (0 : Fin 1) s' d) = K (ix3 b s' d))
    (hm : ∀ s' : Fin 2048, P3 (ix3 (0 : Fin 1) r s') = (M (ix3 b R s')).setWidth 32) :
    out0_5 P0 P1 P2 P3 (ix3 u r s) = attention Q K M (ix3 b R s) := by
  unfold out0_5
  simp only [View.ld_unit_zero (S := S1x512x64) zeros3, View.ld_unit_zero (S := S1x2048x64) zeros3,
    View.ld_unit_zero (S := S1x512x2048) zeros3]
  refine (Value.canon5_eq P0 P1 P3 (ix3 u r s)).trans ?_
  have e : Value.ix5_0 (ix3 u r s) = ix2 r s := funext fun a => Fin.ext (by
    match a with | ⟨0, _⟩ => rfl | ⟨1, _⟩ => rfl)
  show k0_pay2 P0 P1 P3 (Value.ix5_0 (ix3 u r s)) = _
  rw [e, Block.weights_apply, attention_ix3]
  exact congrFun (weight_congr hq hk fun s' => by rw [hm s', widened_ne_zero]) s

/-- What a point leaves in the output's buffer, at block index `(u, r, d)`, when moreover its value block is the values
    of batch entry `b`: entry `(b, R, d)` of the output. -/
theorem outputBlock_apply (P0 : Vec Ideal S1x512x64 .f32) (P1 P2 : Vec Ideal S1x2048x64 .f32) (P3 : Vec Ideal S1x512x2048 .i32)
    (W Q K : S16x2048x64.Idx → EReal) (M : S16x2048x2048.Idx → BitVec 1)
    (u : Fin 1) (r : Fin 512) (d : Fin 64) (b : Fin 16) (R : Fin 2048)
    (hq : ∀ d' : Fin 64, P0 (ix3 (0 : Fin 1) r d') = Q (ix3 b R d'))
    (hk : ∀ (s' : Fin 2048) (d' : Fin 64), P1 (ix3 (0 : Fin 1) s' d') = K (ix3 b s' d'))
    (hv : ∀ (s' : Fin 2048) (d' : Fin 64), P2 (ix3 (0 : Fin 1) s' d') = W (ix3 b s' d'))
    (hm : ∀ s' : Fin 2048, P3 (ix3 (0 : Fin 1) r s') = (M (ix3 b R s')).setWidth 32) :
    out0_4 P0 P1 P2 P3 (ix3 u r d) = output W Q K M (ix3 b R d) := by
  unfold out0_4
  simp only [View.ld_unit_zero (S := S1x512x64) zeros3, View.ld_unit_zero (S := S1x2048x64) zeros3,
    View.ld_unit_zero (S := S1x512x2048) zeros3]
  refine (Value.canon4_eq P0 P1 P2 P3 (ix3 u r d)).trans ?_
  have e : Value.ix4_0 (ix3 u r d) = ix2 r d := funext fun a => Fin.ext (by
    match a with | ⟨0, _⟩ => rfl | ⟨1, _⟩ => rfl)
  show k0_pay4 P0 P1 P2 P3 (Value.ix4_0 (ix3 u r d)) = _
  rw [e, Block.output_apply, output_ix3, weight_congr hq hk fun s' => by rw [hm s', widened_ne_zero]]
  exact congrArg (mix _) (funext fun s' => hv s' d)

/-! ## The arrays the region finds -/

/-- The mask words the region finds are the mask bits, each widened to 32 bits. -/
theorem mask_words (c : Dev nD) :
    (V m c main_v0 : S16x2048x2048.Idx → BitVec 32) = extui 32 (m ((c : Thread nD τ).loc main_arg3)) natLt_1_32 := by
  dsimp only [Gen.V, Gen.hostOps0]; after_results

/-- The printed index maps, decided over the 64 points: the query, mask and result windows move together along the
    batch and row-block axes; the key and value windows follow the batch axis only; nothing moves along the last axis. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (0 : Fin 3) ≤ 15 ∧ win0_5.index t (1 : Fin 3) ≤ 3 ∧ win0_5.index t (2 : Fin 3) = 0 :=
  (by decide +kernel : ∀ t : Fin grid0.N, _)

/-- Every (batch entry, row block) is SOME point's. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## What a point writes back -/

/-- The three facts every point's blocks satisfy, at block row `r`: the rows the point's blocks hold are the array rows of
    batch entry `b = index 0` and row `R = 512 · index 1 + r`. -/
theorem point_rows (c : Dev nD) (t : Fin cfg0.N) (r : Fin 512) (b : Fin 16) (R : Fin 2048)
    (hb : b.val = win0_5.index t (0 : Fin 3)) (hR : R.val = win0_5.index t (1 : Fin 3) * 512 + r.val) :
    (∀ d : Fin 64, iblk m c 0 t (ix3 (0 : Fin 1) r d) = V m c main_arg2 (ix3 b R d))
    ∧ (∀ (s' : Fin 2048) (d : Fin 64), iblk m c 1 t (ix3 (0 : Fin 1) s' d) = V m c main_arg1 (ix3 b s' d))
    ∧ (∀ (s' : Fin 2048) (d : Fin 64), iblk m c 2 t (ix3 (0 : Fin 1) s' d) = V m c main_arg0 (ix3 b s' d))
    ∧ (∀ s' : Fin 2048, iblk m c 3 t (ix3 (0 : Fin 1) r s') = ((m ((c : Thread nD τ).loc main_arg3)) (ix3 b R s')).setWidth 32) := by
  obtain ⟨f00, f01, f02, f10, f11, f12, f20, f21, f22, f30, f31, f32, f40, f41, f42, f50, f51, f52⟩ := idx_facts t
  refine ⟨fun d => ?_, fun s' d => ?_, fun s' d => ?_, fun s' => ?_⟩
  · show V m c main_arg2 (((cfg0.win 0).blk t).view.emb (ix3 (0 : Fin 1) r d)) = _
    refine congrArg (V m c main_arg2) (funext fun a => Fin.ext ?_)
    match a with
    | ⟨0, _⟩ => show win0_0.index t (0 : Fin 3) * 1 + 1 * 0 = b.val; omega
    | ⟨1, _⟩ => show win0_0.index t (1 : Fin 3) * 512 + 1 * r.val = R.val; omega
    | ⟨2, _⟩ => show win0_0.index t (2 : Fin 3) * 64 + 1 * d.val = d.val; omega
  · show V m c main_arg1 (((cfg0.win 1).blk t).view.emb (ix3 (0 : Fin 1) s' d)) = _
    refine congrArg (V m c main_arg1) (funext fun a => Fin.ext ?_)
    match a with
    | ⟨0, _⟩ => show win0_1.index t (0 : Fin 3) * 1 + 1 * 0 = b.val; omega
    | ⟨1, _⟩ => show win0_1.index t (1 : Fin 3) * 2048 + 1 * s'.val = s'.val; omega
    | ⟨2, _⟩ => show win0_1.index t (2 : Fin 3) * 64 + 1 * d.val = d.val; omega
  · show V m c main_arg0 (((cfg0.win 2).blk t).view.emb (ix3 (0 : Fin 1) s' d)) = _
    refine congrArg (V m c main_arg0) (funext fun a => Fin.ext ?_)
    match a with
    | ⟨0, _⟩ => show win0_2.index t (0 : Fin 3) * 1 + 1 * 0 = b.val; omega
    | ⟨1, _⟩ => show win0_2.index t (1 : Fin 3) * 2048 + 1 * s'.val = s'.val; omega
    | ⟨2, _⟩ => show win0_2.index t (2 : Fin 3) * 64 + 1 * d.val = d.val; omega
  · show V m c main_v0 (((cfg0.win 3).blk t).view.emb (ix3 (0 : Fin 1) r s')) = _
    refine (congrFun (mask_words m c) _).trans ?_
    show ((m ((c : Thread nD τ).loc main_arg3)) (((cfg0.win 3).blk t).view.emb (ix3 (0 : Fin 1) r s'))).setWidth 32 = _
    refine congrArg (fun z => ((m ((c : Thread nD τ).loc main_arg3)) z).setWidth 32) (funext fun a => Fin.ext ?_)
    match a with
    | ⟨0, _⟩ => show win0_3.index t (0 : Fin 3) * 1 + 1 * 0 = b.val; omega
    | ⟨1, _⟩ => show win0_3.index t (1 : Fin 3) * 512 + 1 * r.val = R.val; omega
    | ⟨2, _⟩ => show win0_3.index t (2 : Fin 3) * 2048 + 1 * s'.val = s'.val; omega

/-- Point `t`'s weights block, index by index, is the block of the attention weights of the arrays the region finds. -/
theorem point5 (c : Dev nD) (t : Fin cfg0.N) (y : S1x512x2048.Idx) :
    out0_5 (iblk m c 0 t) (iblk m c 1 t) (iblk m c 2 t) (iblk m c 3 t) y
      = attention (V m c main_arg2) (V m c main_arg1) (m ((c : Thread nD τ).loc main_arg3)) (((cfg0.win 5).blk t).view.emb y) := by
  obtain ⟨u, r, s, rfl⟩ : ∃ (u : Fin 1) (r : Fin 512) (s : Fin 2048), y = ix3 u r s := ⟨y 0, y 1, y 2, eq_ix3 y⟩
  obtain ⟨f00, f01, f02, f10, f11, f12, f20, f21, f22, f30, f31, f32, f40, f41, f42, f50, f51, f52⟩ := idx_facts t
  have hu : u.val = 0 := by omega
  have hb : win0_5.index t (0 : Fin 3) < 16 := by omega
  have hR : win0_5.index t (1 : Fin 3) * 512 + r.val < 2048 := by have := r.isLt; omega
  have hi : ((cfg0.win 5).blk t).view.emb (ix3 u r s)
      = ix3 (⟨win0_5.index t (0 : Fin 3), hb⟩ : Fin 16) (⟨win0_5.index t (1 : Fin 3) * 512 + r.val, hR⟩ : Fin 2048) s := by
    funext a; apply Fin.ext
    match a with
    | ⟨0, _⟩ => show win0_5.index t (0 : Fin 3) * 1 + 1 * u.val = win0_5.index t (0 : Fin 3); omega
    | ⟨1, _⟩ => show win0_5.index t (1 : Fin 3) * 512 + 1 * r.val = win0_5.index t (1 : Fin 3) * 512 + r.val; omega
    | ⟨2, _⟩ => show win0_5.index t (2 : Fin 3) * 2048 + 1 * s.val = s.val; omega
  obtain ⟨hq, hk, hv, hm⟩ := point_rows m c t r ⟨win0_5.index t (0 : Fin 3), hb⟩ ⟨win0_5.index t (1 : Fin 3) * 512 + r.val, hR⟩ rfl rfl
  exact (weightsBlock_apply (iblk m c 0 t) (iblk m c 1 t) (iblk m c 2 t) (iblk m c 3 t) (V m c main_arg2) (V m c main_arg1)
    (m ((c : Thread nD τ).loc main_arg3)) u r s _ _ hq hk hm).trans (congrArg (attention (V m c main_arg2) (V m c main_arg1) (m ((c : Thread nD τ).loc main_arg3))) hi.symm)

/-- Point `t`'s output block, index by index, is the block of the output of the arrays the region finds. -/
theorem point4 (c : Dev nD) (t : Fin cfg0.N) (y : S1x512x64.Idx) :
    out0_4 (iblk m c 0 t) (iblk m c 1 t) (iblk m c 2 t) (iblk m c 3 t) y
      = output (V m c main_arg0) (V m c main_arg2) (V m c main_arg1) (m ((c : Thread nD τ).loc main_arg3)) (((cfg0.win 4).blk t).view.emb y) := by
  obtain ⟨u, r, d, rfl⟩ : ∃ (u : Fin 1) (r : Fin 512) (d : Fin 64), y = ix3 u r d := ⟨y 0, y 1, y 2, eq_ix3 y⟩
  obtain ⟨f00, f01, f02, f10, f11, f12, f20, f21, f22, f30, f31, f32, f40, f41, f42, f50, f51, f52⟩ := idx_facts t
  have hu : u.val = 0 := by omega
  have hb : win0_5.index t (0 : Fin 3) < 16 := by omega
  have hR : win0_5.index t (1 : Fin 3) * 512 + r.val < 2048 := by have := r.isLt; omega
  have hi : ((cfg0.win 4).blk t).view.emb (ix3 u r d)
      = ix3 (⟨win0_5.index t (0 : Fin 3), hb⟩ : Fin 16) (⟨win0_5.index t (1 : Fin 3) * 512 + r.val, hR⟩ : Fin 2048) d := by
    funext a; apply Fin.ext
    match a with
    | ⟨0, _⟩ => show win0_4.index t (0 : Fin 3) * 1 + 1 * u.val = win0_5.index t (0 : Fin 3); omega
    | ⟨1, _⟩ => show win0_4.index t (1 : Fin 3) * 512 + 1 * r.val = win0_5.index t (1 : Fin 3) * 512 + r.val; omega
    | ⟨2, _⟩ => show win0_4.index t (2 : Fin 3) * 64 + 1 * d.val = d.val; omega
  obtain ⟨hq, hk, hv, hm⟩ := point_rows m c t r ⟨win0_5.index t (0 : Fin 3), hb⟩ ⟨win0_5.index t (1 : Fin 3) * 512 + r.val, hR⟩ rfl rfl
  exact (outputBlock_apply (iblk m c 0 t) (iblk m c 1 t) (iblk m c 2 t) (iblk m c 3 t) (V m c main_arg0) (V m c main_arg2) (V m c main_arg1)
    (m ((c : Thread nD τ).loc main_arg3)) u r d _ _ hq hk hv hm).trans (congrArg (output (V m c main_arg0) (V m c main_arg2) (V m c main_arg1) (m ((c : Thread nD τ).loc main_arg3))) hi.symm)

/-- WHAT POINT `t` WRITES BACK to the weights' array is block `t` of the attention weights. -/
theorem flushed5_eq (c : Dev nD) (t : Fin cfg0.N) :
    (dats m 0 c).flushed 5 t
      = ((cfg0.win 5).blk t).view.read (Elt Ideal) (attention (V m c main_arg2) (V m c main_arg1) (m ((c : Thread nD τ).loc main_arg3))) := by
  rw [Value.flushed5]
  funext y
  exact point5 m c t y

/-- WHAT POINT `t` WRITES BACK to the output's array is block `t` of the output. -/
theorem flushed4_eq (c : Dev nD) (t : Fin cfg0.N) :
    (dats m 0 c).flushed 4 t
      = ((cfg0.win 4).blk t).view.read (Elt Ideal) (output (V m c main_arg0) (V m c main_arg2) (V m c main_arg1) (m ((c : Thread nD τ).loc main_arg3))) := by
  rw [Value.flushed4]
  funext y
  exact point4 m c t y

/-! ## The blocks tile the arrays -/

/-- An index of the weights' array is in point `t`'s block iff each coordinate is in the block's range on its axis. -/
theorem mem_blk5 (t : Fin cfg0.N) (i : S16x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v1_1).slice (win0_5.rect t)).set ↔ _
  rw [View.set_slice_whole, Rect.mem_set_unit]
  exact Iff.rfl

/-- The same for the output's array. -/
theorem mem_blk4 (t : Fin cfg0.N) (i : S16x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v1_0).slice (win0_4.rect t)).set ↔ _
  rw [View.set_slice_whole, Rect.mem_set_unit]
  exact Iff.rfl

/-- Every index of the weights' array is in the block of the point of its batch entry and row block. -/
theorem cover5 (i : S16x2048x2048.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every index of the output's array likewise. -/
theorem cover4 (i : S16x2048x64.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  obtain ⟨f00, f01, f02, f10, f11, f12, f20, f21, f22, f30, f31, f32, f40, f41, f42, f50, f51, f52⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-! ## The arrays after the run -/

/-- THE WEIGHTS' ARRAY after the run: the attention weights of the argument arrays. -/
theorem final5 (c : Dev nD) :
    (dats m 0 c).arrAt 5 cfg0.N = attention (m ((c : Thread nD τ).loc main_arg2)) (m ((c : Thread nD τ).loc main_arg1)) (m ((c : Thread nD τ).loc main_arg3)) := by
  rw [← V_main_arg2 m c, ← V_main_arg1 m c]
  exact (dats m 0 c).arrAt_eq_of_cover 5 _ (fun t _ => flushed5_eq m c t) cover5

/-- THE OUTPUT'S ARRAY after the run: the output of the argument arrays. -/
theorem final4 (c : Dev nD) :
    (dats m 0 c).arrAt 4 cfg0.N = output (m ((c : Thread nD τ).loc main_arg0)) (m ((c : Thread nD τ).loc main_arg2)) (m ((c : Thread nD τ).loc main_arg1)) (m ((c : Thread nD τ).loc main_arg3)) := by
  rw [← V_main_arg0 m c, ← V_main_arg2 m c, ← V_main_arg1 m c]
  exact (dats m 0 c).arrAt_eq_of_cover 4 _ (fun t _ => flushed4_eq m c t) cover4

/-- THE KERNEL'S RUN, READ: every weakly fair execution terminates with the output array at the output and the
    weights' array at the attention weights of the argument arrays, the arguments unchanged. -/
theorem run : θ_run defs (onTc (τ := τ) (main (F := Ideal))) ⟨m, fun _ => 0, ρ⟩ fun r => ∀ c : Dev nD,
      r.2.mem ((c : Thread nD τ).loc main_v1_0) = output (m ((c : Thread nD τ).loc main_arg0)) (m ((c : Thread nD τ).loc main_arg2)) (m ((c : Thread nD τ).loc main_arg1)) (m ((c : Thread nD τ).loc main_arg3))
      ∧ r.2.mem ((c : Thread nD τ).loc main_v1_1) = attention (m ((c : Thread nD τ).loc main_arg2)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Arrays

end
-- ==== Proof.ReferenceRow.lean ====
/-
  What the reference computes, read index by index at the extended reals, in the same row functions as the kernel's
  blocks (Proof/SoftmaxRow.lean).

  The reference forms the scores of the whole [16, 2048, 2048] array at once, masks them, takes each row's maximum by a
  reduction over the last axis — and then the maximum of that with the fill once more, which changes nothing because a
  maximum folded from the fill is at least the fill —, subtracts it, exponentiates, sums each row from zero, divides, and
  contracts the weights with the values over the keys. Entry `(b, r, ·)` of each stage depends only on query row
  `(b, r)`, the keys and values of batch entry `b`, and the mask row `(b, r)`.
-/
import proofs.«144351_j61873298866888_2_alg».proof.Proof.Gen.ReferenceIdeal.Read
import proofs.«144351_j61873298866888_2_alg».proof.Proof.SoftmaxRow
import proofs.«144351_j61873298866888_2_alg».proof.Proof.AttentionArrays
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S16x2048x64, .f32⟩ : BufTy).Contents (Elt Ideal)) (x3 : (⟨S16x2048x2048, .i1⟩ : BufTy).Contents (Elt Ideal))

/-- The masked, scaled scores: entry `(b, r, s)` is the score of query row `(b, r)` against key row `(b, s)` under mask
    bit `(b, r, s)`. (`x2` is the queries, `x1` the keys.) -/
theorem scores_apply (b : Fin 16) (r s : Fin 2048) :
    val_main_v3 (F := Ideal) x1 x2 x3 (ix3 b r s)
      = score (fun d => x2 (ix3 b r d)) (fun s' d => x1 (ix3 b s' d)) (fun s' => x3 (ix3 b r s')) s := by
  have el : ∀ k : Fin 64, lidx_main_v0 (ix3 b r s) k = ix3 b r k := fun k => funext fun a => Fin.ext (by
    match a with | ⟨0, _⟩ => rfl | ⟨1, _⟩ => rfl | ⟨2, _⟩ => rfl)
  have er : ∀ k : Fin 64, ridx_main_v0 (ix3 b r s) k = ix3 b s k := fun k => funext fun a => Fin.ext (by
    match a with | ⟨0, _⟩ => rfl | ⟨1, _⟩ => rfl | ⟨2, _⟩ => rfl)
  rw [val_main_v3_apply, val_main_call0_v1_apply, val_main_call0_v0_apply, val_main_cst_0_apply, val_main_v2_apply,
    val_main_v0_apply, val_main_v1_apply, val_main_cst_apply]
  unfold score
  refine congrArg (fun z => Scalar.select (x3 (ix3 b r s)) fill (z * scale)) (Finset.sum_congr rfl fun k _ => ?_)
  rw [el, er]

/-- A row's maximum by the host's reduction over the last axis, and the maximum of that with the fill: the row's
    maximum folded from the fill. Stated for ANY array in place of the scores. -/
theorem hostRowMax (Y : (⟨S16x2048x2048, .f32⟩ : BufTy).Contents (Elt Ideal)) (b : Fin 16) (r : Fin 2048) :
    max fill (Host.reduce (FloatOps.maximumf (F := Ideal) (φ := .f32)) Y (val_main_cst_1 (F := Ideal))
        reducesTo_S16x2048x2048_S16x2048_d2 h_S_ (ix2 b r))
      = rowMax (fun s => Y (ix3 b r s)) := by
  rw [Host.reduce_eq_fold_single (FloatOps.maximumf (F := Ideal) (φ := .f32)) Y (val_main_cst_1 (F := Ideal))
    reducesTo_S16x2048x2048_S16x2048_d2 (by decide) h_S_ (ix2 b r)]
  refine (max_fold_max_self _ _).trans ?_
  unfold rowMax
  exact congrArg (fun f => Finset.fold max fill f (Finset.univ : Finset (Fin 2048)))
    (funext fun k => congrArg Y (funext fun a => Fin.ext (by
      match a with | ⟨0, _⟩ => rfl | ⟨1, _⟩ => rfl | ⟨2, _⟩ => rfl)))

/-- The row maxima the reference subtracts: entry `(b, r)` is the maximum of score row `(b, r)`. -/
theorem maxima_apply (b : Fin 16) (r : Fin 2048) :
    val_main_v6 (F := Ideal) x1 x2 x3 (ix2 b r) = rowMax (fun s => val_main_v3 (F := Ideal) x1 x2 x3 (ix3 b r s)) := by
  rw [val_main_v6_apply, val_main_v5_apply, val_main_cst_2_apply]
  unfold val_main_v4
  generalize val_main_v3 (F := Ideal) x1 x2 x3 = Y
  exact hostRowMax Y b r

/-- The shifted exponentials: entry `(b, r, s)` is the shifted exponential of entry `s` of score row `(b, r)`. -/
theorem exps_apply (b : Fin 16) (r s : Fin 2048) :
    val_main_v10 (F := Ideal) x1 x2 x3 (ix3 b r s) = expo (fun s' => val_main_v3 (F := Ideal) x1 x2 x3 (ix3 b r s')) s := by
  have e : idx_main_v7 (idx_main_v8 (ix3 b r s)) = ix2 b r := funext fun a => Fin.ext (by
    match a with | ⟨0, _⟩ => rfl | ⟨1, _⟩ => rfl)
  rw [val_main_v10_apply, val_main_v9_apply, val_main_v8_apply, val_main_v7_apply, e, maxima_apply]
  rfl

/-- The weights: entry `(b, r, s)` is entry `s` of the softmax of score row `(b, r)`. -/
theorem softmax_apply (b : Fin 16) (r s : Fin 2048) :
    val_main_v14 (F := Ideal) x1 x2 x3 (ix3 b r s) = softmax (fun s' => val_main_v3 (F := Ideal) x1 x2 x3 (ix3 b r s')) s := by
  have e : idx_main_v12 (idx_main_v13 (ix3 b r s)) = ix2 b r := funext fun a => Fin.ext (by
    match a with | ⟨0, _⟩ => rfl | ⟨1, _⟩ => rfl)
  have ek : ∀ k : Fin 2048, idx_main_v11 (ix2 b r) k = ix3 b r k := fun k => funext fun a => Fin.ext (by
    match a with | ⟨0, _⟩ => rfl | ⟨1, _⟩ => rfl | ⟨2, _⟩ => rfl)
  rw [val_main_v14_apply, val_main_v13_apply, val_main_v12_apply, e, val_main_v11_apply, val_main_cst_3_apply, exps_apply]
  unfold softmax
  refine congrArg (Ideal.div _) ((zero_word_add _).trans (Finset.sum_congr rfl fun k _ => ?_))
  rw [ek, exps_apply]

/-- THE WEIGHTS AT AN INDEX: entry `(b, r, s)` is the attention weight of query row `(b, r)` on key `s`. -/
theorem weights_apply (b : Fin 16) (r s : Fin 2048) :
    val_main_v14 (F := Ideal) x1 x2 x3 (ix3 b r s)
      = weight (fun d => x2 (ix3 b r d)) (fun s' d => x1 (ix3 b s' d)) (fun s' => x3 (ix3 b r s')) s := by
  rw [softmax_apply]
  unfold weight
  exact congrArg (fun x => softmax x s) (funext fun s' => scores_apply x1 x2 x3 b r s')

/-- THE OUTPUT AT AN INDEX: entry `(b, r, d)` is the weights of query row `(b, r)` applied to column `d` of the values of
    batch entry `b`. (`x0` is the values.) -/
theorem output_apply (b : Fin 16) (r : Fin 2048) (d : Fin 64) :
    val_main_v15 (F := Ideal) x0 x1 x2 x3 (ix3 b r d)
      = mix (weight (fun d' => x2 (ix3 b r d')) (fun s' d' => x1 (ix3 b s' d')) (fun s' => x3 (ix3 b r s')))
          (fun s => x0 (ix3 b s d)) := by
  have el : ∀ k : Fin 2048, lidx_main_v15 (ix3 b r d) k = ix3 b r k := fun k => funext fun a => Fin.ext (by
    match a with | ⟨0, _⟩ => rfl | ⟨1, _⟩ => rfl | ⟨2, _⟩ => rfl)
  have er : ∀ k : Fin 2048, ridx_main_v15 (ix3 b r d) k = ix3 b k d := fun k => funext fun a => Fin.ext (by
    match a with | ⟨0, _⟩ => rfl | ⟨1, _⟩ => rfl | ⟨2, _⟩ => rfl)
  rw [val_main_v15_apply]
  unfold mix
  refine Finset.sum_congr rfl fun k _ => ?_
  rw [el, er, weights_apply]

/-- THE REFERENCE'S WEIGHTS are the attention weights of the queries `x2` on the keys `x1` under the mask `x3`. -/
theorem weights_eq : val_main_v14 (F := Ideal) x1 x2 x3 = attention x2 x1 x3 := by
  funext i
  obtain ⟨b, r, s, rfl⟩ : ∃ (b : Fin 16) (r s : Fin 2048), i = ix3 b r s := ⟨i 0, i 1, i 2, eq_ix3 i⟩
  exact weights_apply x1 x2 x3 b r s

/-- THE REFERENCE'S OUTPUT is those weights applied to the values `x0`. -/
theorem output_eq : val_main_v15 (F := Ideal) x0 x1 x2 x3 = output x0 x2 x1 x3 := by
  funext i
  obtain ⟨b, r, d, rfl⟩ : ∃ (b : Fin 16) (r : Fin 2048) (d : Fin 64), i = ix3 b r d := ⟨i 0, i 1, i 2, eq_ix3 i⟩
  exact output_apply x0 x1 x2 x3 b r d

end Cert.ReferenceIdeal.RefValue

end
-- ==== Proof.lean ====
/-
  Scaled dot-product attention with a boolean mask, B = 16, Q = S = 2048, D = 64: a tiled kernel against its plain
  reference, equal at the extended reals.

  Both programs compute, for every batch entry `b` and query row `r`,
      x_s  = -∞ where mask(b, r, s) is set, else (Σ_d query(b, r, d) · key(b, s, d)) · 1/8,
      w_s  = exp (x_s − max_s' x_s') / Σ_s' exp (x_s' − max_s' x_s'),
      out_d = Σ_s w_s · value(b, s, d),
  and return `out` and `w`. The kernel does it on a 16 × 4 grid, 512 query rows at a time, rounding the operands of
  its two products to bf16 (the identity at the extended reals), with the mask widened to 32-bit words and tested
  against zero (the mask bit again). The reference does it on the whole arrays, and takes the maximum of each row's
  maximum with -∞ once more (nothing, since the row's maximum is folded from -∞). The two literals, 1/8 and -∞, are the
  same words in both programs and are never evaluated. No step needs a finite input: the sums are regrouped only by
  commutativity and associativity, never distributed over, so the precondition is not opened.

  The kernel's run is read in Proof/KernelBlock.lean (one grid point's blocks, index by index) and
  Proof/KernelArray.lean (the 64 blocks tile the two result arrays); the reference's in Proof/ReferenceRow.lean; both
  in the row functions of Proof/SoftmaxRow.lean and the whole-array functions of Proof/AttentionArrays.lean. The ideal
  pass rewrote nothing, so the kernel's idealization is its own text read at the extended reals.
-/
import proofs.«144351_j61873298866888_2_alg».proof.Defs
import proofs.«144351_j61873298866888_2_alg».proof.Proof.Gen.Kernel
import proofs.«144351_j61873298866888_2_alg».proof.Proof.Gen.Kernel.Skeleton
import proofs.«144351_j61873298866888_2_alg».proof.Proof.Gen.Kernel.Launch
import proofs.«144351_j61873298866888_2_alg».proof.Proof.Gen.Kernel.Points
import proofs.«144351_j61873298866888_2_alg».proof.Proof.Gen.Kernel.Frame
import proofs.«144351_j61873298866888_2_alg».proof.Proof.Gen.KernelIdeal
import proofs.«144351_j61873298866888_2_alg».proof.Proof.Gen.KernelIdeal.Skeleton
import proofs.«144351_j61873298866888_2_alg».proof.Proof.Gen.KernelIdeal.Launch
import proofs.«144351_j61873298866888_2_alg».proof.Proof.Gen.KernelIdeal.Points
import proofs.«144351_j61873298866888_2_alg».proof.Proof.Gen.KernelIdeal.Frame
import proofs.«144351_j61873298866888_2_alg».proof.Proof.Gen.ReferenceIdeal
import proofs.«144351_j61873298866888_2_alg».proof.Proof.Gen.Pre_finite_inputs
import proofs.«144351_j61873298866888_2_alg».proof.Proof.Gen.KernelIdeal.Value
import proofs.«144351_j61873298866888_2_alg».proof.Proof.Gen.ReferenceIdeal.Run
import proofs.«144351_j61873298866888_2_alg».proof.Proof.Gen.ReferenceIdeal.Read
import proofs.«144351_j61873298866888_2_alg».proof.Proof.KernelArray
import proofs.«144351_j61873298866888_2_alg».proof.Proof.ReferenceRow
import Idealize.ShloMosaic.Adequacy
import Idealize.ShloMosaic.Init

noncomputable section

namespace Cert.Proof

open Idealize.ShloMosaic Idealize.ShloMosaic.TcCoe Idealize.SL.Sem Cert.Attn

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the four arguments, the kernel's run ends with its two result arrays at the output
    and the attention weights of the arguments (Proof/KernelArray.lean), and the reference's run with its two results
    at the same two functions of the same arguments (Proof/ReferenceRow.lean). -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v15_eq _ _ _ _).trans ?_
    rw [Cert.ReferenceIdeal.RefValue.output_eq, (hagree c).1, (hagree c).2.1, (hagree c).2.2.1, (hagree c).2.2.2]
  · refine (Cert.ReferenceIdeal.Read.val_main_v14_eq _ _ _).trans ?_
    rw [Cert.ReferenceIdeal.RefValue.weights_eq, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
